-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096x16 .f32) (main_arg4 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩
abbrev S4096x128 : Shape := ⟨2, ![4096, 128]⟩
abbrev S128x4096 : Shape := ⟨2, ![128, 4096]⟩
abbrev S2048x512 : Shape := ⟨2, ![2048, 512]⟩
abbrev S512x1024 : Shape := ⟨2, ![512, 1024]⟩
abbrev S512x128 : Shape := ⟨2, ![512, 128]⟩
abbrev S128x1024 : Shape := ⟨2, ![128, 1024]⟩
abbrev S2048x1024 : Shape := ⟨2, ![2048, 1024]⟩
abbrev S2048x128 : Shape := ⟨2, ![2048, 128]⟩

abbrev nBuf : Space → Nat
  | .hbm => 16
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S_, .i32⟩
  | .hbm, ⟨6, _⟩ => ⟨S_, .f32⟩
  | .hbm, ⟨7, _⟩ => ⟨S4096x128, .f32⟩
  | .hbm, ⟨8, _⟩ => ⟨S_, .i32⟩
  | .hbm, ⟨9, _⟩ => ⟨S_, .f32⟩
  | .hbm, ⟨10, _⟩ => ⟨S128x4096, .f32⟩
  | .hbm, ⟨11, _⟩ => ⟨S8192x4096, .bf16⟩
  | .hbm, ⟨12, _⟩ => ⟨S4096x4096, .bf16⟩
  | .hbm, ⟨13, _⟩ => ⟨S4096x128, .bf16⟩
  | .hbm, ⟨14, _⟩ => ⟨S128x4096, .bf16⟩
  | .hbm, ⟨15, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S512x128, .bf16⟩
  | .local _ .vmem, ⟨5, _⟩ => ⟨S512x128, .bf16⟩
  | .local _ .vmem, ⟨6, _⟩ => ⟨S128x1024, .bf16⟩
  | .local _ .vmem, ⟨7, _⟩ => ⟨S128x1024, .bf16⟩
  | .local _ .vmem, ⟨8, _⟩ => ⟨S2048x1024, .f32⟩
  | .local _ .vmem, ⟨9, _⟩ => ⟨S2048x1024, .f32⟩
  | .local _ .vmem, ⟨10, _⟩ => ⟨S2048x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  pads_S4096x16_S4096x128_000_01120 : S4096x16.Pads (![0, 0] : Fin 2 → Nat) ![0, 112] ![0, 0] S4096x128
  h_S_ : 0 < S_.numel
  pads_S16x4096_S128x4096_01120_000 : S16x4096.Pads (![0, 0] : Fin 2 → Nat) ![112, 0] ![0, 0] S128x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S2048x1024_S2048x1024 : S2048x1024.ShapeCasts S2048x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  dot_S2048x512_S512x1024_S2048x1024_1_0_0_1_n_n_wf : DotDims.WF S2048x512 S512x1024 S2048x1024 [1] [0] [0] [1] [] []
  dot_S2048x512_S512x128_S2048x128_1_0_0_1_n_n_wf : DotDims.WF S2048x512 S512x128 S2048x128 [1] [0] [0] [1] [] []
  dot_S2048x128_S128x1024_S2048x1024_1_0_0_1_n_n_wf : DotDims.WF S2048x128 S128x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .bf16 = 32 ∨ (Rect.block (s := S4096x128) S512x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x4096.size a
  hwx0_3 : ∀ i : grid0.Coords, EltTy.bits .bf16 = 32 ∨ (Rect.block (s := S128x4096) S128x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_v2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S8192x16 : Shape := ⟨2, ![8192, 16]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8192x4096, .f32⟩
  | .hbm, ⟨6, _⟩ => ⟨S8192x16, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf

class Facts : Prop extends Facts₀ where

variable [Facts]
-- ==== Proof.Pieces.lean ====
/-
  What one grid point leaves in the output block and in the rank accumulator, case by case, as the body's arithmetic
  applied to the point's input blocks and to what the point before left.

  The body at a point with k-coordinate k:
    k = 0      : both buffers are zeroed, then  out := out + x·W,  acc := acc + x·A          (case A)
    0 < k < 7  :                                 out := out + x·W,  acc := acc + x·A          (case B)
    k = 7      : the same two updates, and then  out := out + acc·B                            (case C)
  Each buffer is stored whole, so what a case leaves is its LAST store's payload; a store that reads a buffer stored
  earlier in the same body reads that earlier payload.
-/
import proofs.«117060_j43516608643827_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- Case A, the output block: the zero block plus the point's x-block times its W-block. -/
theorem outA (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S512x128 .bf16) (harg5 : arg5.IsWhole) (arg6 : Memref sig .tc .vmem S128x1024 .bf16) (harg6 : arg6.IsWhole) (arg7 : Memref sig .tc .vmem S2048x1024 .f32) (harg7 : arg7.IsWhole) (arg8 : Memref sig .tc .vmem S2048x128 .f32) (harg8 : arg8.IsWhole) (hc0 : cond0_0 i) (hc1 : ¬cond0_1 i) (x0 : Vec F S2048x512 .bf16) (x1 : Vec F S512x1024 .bf16) (x2 : Vec F S512x128 .bf16) (x3 : Vec F S128x1024 .bf16) :
    out0_A_4 c i arg3 harg3 arg4 harg4 arg5 harg5 arg6 harg6 arg7 harg7 arg8 harg8 hc0 hc1 x0 x1 x2 x3 = k0_pay4 x0 x1 (k0_pay1 (F := F)) := by
  unfold out0_A_4
  rw [View.read_writes_eq_canon _ _ _ (cover0_A_4 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x1024) hz]
  simp only [View.readCov_unit_zero (S := S2048x1024) _ hz, View.readCov_unit_zero (S := S2048x128) _ hz, View.readAt_eq_ld, harg3.read_unread, harg4.read_unread, harg5.read_unread, harg6.read_unread, harg7.read_unread, harg8.read_unread, View.ld_unit_zero (S := S2048x512) hz, View.ld_unit_zero (S := S512x1024) hz, View.ld_unit_zero (S := S512x128) hz, View.ld_unit_zero (S := S128x1024) hz, View.ld_unit_zero (S := S2048x1024) hz, View.ld_unit_zero (S := S2048x128) hz]

/-- Case A, the rank accumulator: the zero block plus the point's x-block times its A-block. -/
theorem accA (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S512x128 .bf16) (harg5 : arg5.IsWhole) (arg6 : Memref sig .tc .vmem S128x1024 .bf16) (harg6 : arg6.IsWhole) (arg7 : Memref sig .tc .vmem S2048x1024 .f32) (harg7 : arg7.IsWhole) (arg8 : Memref sig .tc .vmem S2048x128 .f32) (harg8 : arg8.IsWhole) (hc0 : cond0_0 i) (hc1 : ¬cond0_1 i) (x0 : Vec F S2048x512 .bf16) (x1 : Vec F S512x1024 .bf16) (x2 : Vec F S512x128 .bf16) (x3 : Vec F S128x1024 .bf16) :
    sout0_A_0 c i arg3 harg3 arg4 harg4 arg5 harg5 arg6 harg6 arg7 harg7 arg8 harg8 hc0 hc1 x0 x1 x2 x3 = k0_pay5 x0 x2 (k0_pay2 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x128) hz]
  simp only [View.readCov_unit_zero (S := S2048x1024) _ hz, View.readCov_unit_zero (S := S2048x128) _ hz, View.readAt_eq_ld, harg3.read_unread, harg4.read_unread, harg5.read_unread, harg6.read_unread, harg7.read_unread, harg8.read_unread, View.ld_unit_zero (S := S2048x512) hz, View.ld_unit_zero (S := S512x1024) hz, View.ld_unit_zero (S := S512x128) hz, View.ld_unit_zero (S := S128x1024) hz, View.ld_unit_zero (S := S2048x1024) hz, View.ld_unit_zero (S := S2048x128) hz]

/-- Case B, the output block: what the point before left plus x-block times W-block. -/
theorem outB (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S512x128 .bf16) (harg5 : arg5.IsWhole) (arg6 : Memref sig .tc .vmem S128x1024 .bf16) (harg6 : arg6.IsWhole) (arg7 : Memref sig .tc .vmem S2048x1024 .f32) (harg7 : arg7.IsWhole) (arg8 : Memref sig .tc .vmem S2048x128 .f32) (harg8 : arg8.IsWhole) (hc0 : ¬cond0_0 i) (hc1 : ¬cond0_1 i) (x0 : Vec F S2048x512 .bf16) (x1 : Vec F S512x1024 .bf16) (x2 : Vec F S512x128 .bf16) (x3 : Vec F S128x1024 .bf16) (xo4 : Vec F S2048x1024 .f32) (xs0 : Vec F S2048x128 .f32) :
    out0_B_4 c i arg3 harg3 arg4 harg4 arg5 harg5 arg6 harg6 arg7 harg7 arg8 harg8 hc0 hc1 x0 x1 x2 x3 xo4 xs0 = k0_pay4 x0 x1 xo4 := by
  unfold out0_B_4
  rw [View.read_writes_eq_canon _ _ _ (cover0_B_4 c i arg3 harg3 arg4 harg4 arg5 harg5 arg6 harg6 arg7 harg7 arg8 harg8 hc0 hc1 x0 x1 x2 x3 xo4 xs0)]
  unfold kernelRun0_B
  dsimp only
  rw [View.canon_unit_zero (S := S2048x1024) hz]
  simp only [View.readAt_eq_ld, harg3.read_unread, harg4.read_unread, harg5.read_unread, harg6.read_unread, harg7.read_unread, harg8.read_unread, View.ld_unit_zero (S := S2048x512) hz, View.ld_unit_zero (S := S512x1024) hz, View.ld_unit_zero (S := S512x128) hz, View.ld_unit_zero (S := S128x1024) hz, View.ld_unit_zero (S := S2048x1024) hz, View.ld_unit_zero (S := S2048x128) hz]

/-- Case B, the rank accumulator: what the point before left plus x-block times A-block. -/
theorem accB (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S512x128 .bf16) (harg5 : arg5.IsWhole) (arg6 : Memref sig .tc .vmem S128x1024 .bf16) (harg6 : arg6.IsWhole) (arg7 : Memref sig .tc .vmem S2048x1024 .f32) (harg7 : arg7.IsWhole) (arg8 : Memref sig .tc .vmem S2048x128 .f32) (harg8 : arg8.IsWhole) (hc0 : ¬cond0_0 i) (hc1 : ¬cond0_1 i) (x0 : Vec F S2048x512 .bf16) (x1 : Vec F S512x1024 .bf16) (x2 : Vec F S512x128 .bf16) (x3 : Vec F S128x1024 .bf16) (xo4 : Vec F S2048x1024 .f32) (xs0 : Vec F S2048x128 .f32) :
    sout0_B_0 c i arg3 harg3 arg4 harg4 arg5 harg5 arg6 harg6 arg7 harg7 arg8 harg8 hc0 hc1 x0 x1 x2 x3 xo4 xs0 = k0_pay5 x0 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xo4 xs0)]
  unfold kernelRun0_B
  dsimp only
  rw [View.canon_unit_zero (S := S2048x128) hz]
  simp only [View.readAt_eq_ld, harg3.read_unread, harg4.read_unread, harg5.read_unread, harg6.read_unread, harg7.read_unread, harg8.read_unread, View.ld_unit_zero (S := S2048x512) hz, View.ld_unit_zero (S := S512x1024) hz, View.ld_unit_zero (S := S512x128) hz, View.ld_unit_zero (S := S128x1024) hz, View.ld_unit_zero (S := S2048x1024) hz, View.ld_unit_zero (S := S2048x128) hz]

/-- Case C, the output block: the updated output plus the updated rank accumulator times the B-block. -/
theorem outC (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S512x128 .bf16) (harg5 : arg5.IsWhole) (arg6 : Memref sig .tc .vmem S128x1024 .bf16) (harg6 : arg6.IsWhole) (arg7 : Memref sig .tc .vmem S2048x1024 .f32) (harg7 : arg7.IsWhole) (arg8 : Memref sig .tc .vmem S2048x128 .f32) (harg8 : arg8.IsWhole) (hc0 : ¬cond0_0 i) (hc1 : cond0_1 i) (x0 : Vec F S2048x512 .bf16) (x1 : Vec F S512x1024 .bf16) (x2 : Vec F S512x128 .bf16) (x3 : Vec F S128x1024 .bf16) (xo4 : Vec F S2048x1024 .f32) (xs0 : Vec F S2048x128 .f32) :
    out0_C_4 c i arg3 harg3 arg4 harg4 arg5 harg5 arg6 harg6 arg7 harg7 arg8 harg8 hc0 hc1 x0 x1 x2 x3 xo4 xs0 = k0_pay6 x3 (k0_pay5 x0 x2 xs0) (k0_pay4 x0 x1 xo4) := by
  unfold out0_C_4
  rw [View.read_writes_eq_canon _ _ _ (cover0_C_4 c i arg3 harg3 arg4 harg4 arg5 harg5 arg6 harg6 arg7 harg7 arg8 harg8 hc0 hc1 x0 x1 x2 x3 xo4 xs0)]
  unfold kernelRun0_C
  dsimp only
  sl_unfold_words
  rw [View.canon_cons_unit_zero (S := S2048x1024) hz]
  simp only [View.readCov_unit_zero (S := S2048x1024) _ hz, View.readCov_unit_zero (S := S2048x128) _ hz, View.readAt_eq_ld, harg3.read_unread, harg4.read_unread, harg5.read_unread, harg6.read_unread, harg7.read_unread, harg8.read_unread, View.ld_unit_zero (S := S2048x512) hz, View.ld_unit_zero (S := S512x1024) hz, View.ld_unit_zero (S := S512x128) hz, View.ld_unit_zero (S := S128x1024) hz, View.ld_unit_zero (S := S2048x1024) hz, View.ld_unit_zero (S := S2048x128) hz]

/-- Case C, the rank accumulator: what the point before left plus x-block times A-block. -/
theorem accC (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S512x128 .bf16) (harg5 : arg5.IsWhole) (arg6 : Memref sig .tc .vmem S128x1024 .bf16) (harg6 : arg6.IsWhole) (arg7 : Memref sig .tc .vmem S2048x1024 .f32) (harg7 : arg7.IsWhole) (arg8 : Memref sig .tc .vmem S2048x128 .f32) (harg8 : arg8.IsWhole) (hc0 : ¬cond0_0 i) (hc1 : cond0_1 i) (x0 : Vec F S2048x512 .bf16) (x1 : Vec F S512x1024 .bf16) (x2 : Vec F S512x128 .bf16) (x3 : Vec F S128x1024 .bf16) (xo4 : Vec F S2048x1024 .f32) (xs0 : Vec F S2048x128 .f32) :
    sout0_C_0 c i arg3 harg3 arg4 harg4 arg5 harg5 arg6 harg6 arg7 harg7 arg8 harg8 hc0 hc1 x0 x1 x2 x3 xo4 xs0 = k0_pay5 x0 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xo4 xs0)]
  unfold kernelRun0_C
  dsimp only
  sl_unfold_words
  rw [View.canon_unit_zero (S := S2048x128) hz]
  simp only [View.readAt_eq_ld, harg3.read_unread, harg4.read_unread, harg5.read_unread, harg6.read_unread, harg7.read_unread, harg8.read_unread, View.ld_unit_zero (S := S2048x512) hz, View.ld_unit_zero (S := S512x1024) hz, View.ld_unit_zero (S := S512x128) hz, View.ld_unit_zero (S := S128x1024) hz, View.ld_unit_zero (S := S2048x1024) hz, View.ld_unit_zero (S := S2048x128) hz]

end Cert.KernelIdeal.Pieces

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Entries.lean ====
/-
  The body's arithmetic read at an entry, over the extended reals.

  With x : [2048, 512], w : [512, 1024], a : [512, 128], b : [128, 1024] the blocks at a point, o : [2048, 1024] the
  running output block and s : [2048, 128] the running rank accumulator:
    the zero blocks are 0 at every entry;
    (o + x·w)[p, q] = o[p, q] + Σ_{kk<512} x[p, kk]·w[kk, q];
    (s + x·a)[p, r] = s[p, r] + Σ_{kk<512} x[p, kk]·a[kk, r];
    (o + s·b)[p, q] = o[p, q] + Σ_{r<128} s[p, r]·b[r, q]   (the change of float format of s is the identity).
-/
import proofs.«117060_j43516608643827_2_alg».proof.Proof.Gen.KernelIdeal.Skeleton
import proofs.«117060_j43516608643827_2_alg».proof.Proof.LibMatmulNN
import Idealize.ShloMosaic.Lib.Pipeline.Value
import Idealize.ShloMosaic.Lib.ValueIdx
import Idealize.ShloMosaic.PureOps.Ideal.Laws

noncomputable section

namespace Cert.KernelIdeal.Entries

open Cert.KernelIdeal Cert.KernelIdeal.Gen Idealize.ShloMosaic Idealize.ShloMosaic.ValueIdx

/-- The zero output block. -/
theorem zeroOut_apply (j : S2048x1024.Idx) : k0_pay1 (F := Ideal) j = 0 := by
  unfold k0_pay1
  exact Ideal.ofBits_zero_f32

/-- The zero rank accumulator. -/
theorem zeroAcc_apply (j : S2048x128.Idx) : k0_pay2 (F := Ideal) j = 0 := by
  unfold k0_pay2
  simp only [shapeCast_self]
  exact Ideal.ofBits_zero_f32

/-- The base update at an entry: the running value plus the inner product of x's row with w's column. -/
theorem baseUpdate_apply (x : Vec Ideal S2048x512 .bf16) (w : Vec Ideal S512x1024 .bf16) (o : Vec Ideal S2048x1024 .f32)
    (p : Fin 2048) (q : Fin 1024) :
    k0_pay4 x w o (ix2 p q) = o (ix2 p q) + ∑ kk : Fin 512, x (ix2 p kk) * w (ix2 kk q) := by
  have e : k0_pay4 x w o = addf o (matmul (φ₁ := .bf16) (φ₂ := .bf16) dot_S2048x512_S512x1024_S2048x1024_1_0_0_1_n_n none x w
      (constant (F := Ideal) S2048x1024 .f32 0x00000000#32)) := by
    unfold k0_pay4 k0_pay3
    simp only [shapeCast_self]
  rw [e, addf_apply]
  exact congrArg (o (ix2 p q) + ·) (Cert.MatmulNN.matmul_zero_apply (φ₁ := .bf16) (φ₂ := .bf16) _ rfl none x w p q)

/-- The rank-accumulator update at an entry: the running value plus the inner product of x's row with a's column. -/
theorem accUpdate_apply (x : Vec Ideal S2048x512 .bf16) (a : Vec Ideal S512x128 .bf16) (s : Vec Ideal S2048x128 .f32)
    (p : Fin 2048) (r : Fin 128) :
    k0_pay5 x a s (ix2 p r) = s (ix2 p r) + ∑ kk : Fin 512, x (ix2 p kk) * a (ix2 kk r) := by
  have e : k0_pay5 x a s = addf s (matmul (φ₁ := .bf16) (φ₂ := .bf16) dot_S2048x512_S512x128_S2048x128_1_0_0_1_n_n none x a
      (constant (F := Ideal) S2048x128 .f32 0x00000000#32)) := by
    unfold k0_pay5 k0_pay3
    simp only [shapeCast_self]
  rw [e, addf_apply]
  exact congrArg (s (ix2 p r) + ·) (Cert.MatmulNN.matmul_zero_apply (φ₁ := .bf16) (φ₂ := .bf16) _ rfl none x a p r)

/-- The closing update at an entry: the output plus the inner product of the accumulator's row with b's column. -/
theorem closing_apply (b : Vec Ideal S128x1024 .bf16) (s : Vec Ideal S2048x128 .f32) (o : Vec Ideal S2048x1024 .f32)
    (p : Fin 2048) (q : Fin 1024) :
    k0_pay6 b s o (ix2 p q) = o (ix2 p q) + ∑ r : Fin 128, s (ix2 p r) * b (ix2 r q) := by
  have e : k0_pay6 b s o = addf o (matmul (φ₁ := .bf16) (φ₂ := .bf16) dot_S2048x128_S128x1024_S2048x1024_1_0_0_1_n_n none
      (truncf .bf16 s bitsLt_bf16_f32 : FVec Ideal S2048x128 .bf16) b (constant (F := Ideal) S2048x1024 .f32 0x00000000#32)) := by
    unfold k0_pay6
    simp only [shapeCast_self]
  rw [e, addf_apply]
  exact congrArg (o (ix2 p q) + ·) (Cert.MatmulNN.matmul_zero_apply (φ₁ := .bf16) (φ₂ := .bf16) _ rfl none
    (truncf .bf16 s bitsLt_bf16_f32 : FVec Ideal S2048x128 .bf16) b p q)

end Cert.KernelIdeal.Entries

end
-- ==== Proof.LoraSpec.lean ====
/-
  The low-rank-adapted linear map, entry by entry over the extended reals, and the two rearrangements a blocked,
  zero-padded evaluation of it makes.

  For x : [S, K], W : [K, D], A : [K, R], B : [R, D] the map's entry (p, q) is

      (Σ_{k<K} x[p,k]·W[k,q]) + Σ_{r<R} (Σ_{k<K} x[p,k]·A[k,r])·B[r,q].

  A blocked evaluation cuts the sum over k into nb consecutive blocks of bk terms (K = nb·bk) and widens the rank from
  R to R' ≥ R with zero columns of A (and any rows of B). Both are the same extended real: sums over the extended
  reals may be regrouped freely (they form a commutative monoid under +), and 0·y = 0 for every extended real y, so a
  padded rank contributes nothing. No finiteness of the entries is needed.

  Arrays are read at natural-number coordinates (`at2`: zero outside the array), so that a block's entry (a, kk) and
  the array's entry (i·rows + a, kb·bk + kk) are compared as numbers.
-/
import Idealize.ShloMosaic.PureOps.Ideal
import Idealize.ShloMosaic.Lib.ValueIdx

noncomputable section

namespace Cert.Lora

open Finset Idealize.ShloMosaic Idealize.ShloMosaic.ValueIdx

/-! ## Arrays at natural-number coordinates -/

/-- An [M, N] array of extended reals read at natural coordinates: its entry inside the array, zero outside. -/
def at2 {M N : ℕ} (X : (⟨2, ![M, N]⟩ : Shape).Idx → EReal) (p q : ℕ) : EReal :=
  if h : p < M ∧ q < N then X (ix2 ⟨p, h.1⟩ ⟨q, h.2⟩) else 0

theorem at2_val {M N : ℕ} (X : (⟨2, ![M, N]⟩ : Shape).Idx → EReal) (p : Fin M) (q : Fin N) :
    at2 X p.val q.val = X (ix2 p q) := dif_pos ⟨p.isLt, q.isLt⟩

theorem at2_of_not_lt_left {M N : ℕ} (X : (⟨2, ![M, N]⟩ : Shape).Idx → EReal) (p q : ℕ) (h : ¬p < M) :
    at2 X p q = 0 := dif_neg fun h' => h h'.1

theorem at2_of_not_lt_right {M N : ℕ} (X : (⟨2, ![M, N]⟩ : Shape).Idx → EReal) (p q : ℕ) (h : ¬q < N) :
    at2 X p q = 0 := dif_neg fun h' => h h'.2

/-- An array whose entries are given by a function of the coordinates is that function inside the array. -/
theorem at2_of_entries {M N : ℕ} (X : (⟨2, ![M, N]⟩ : Shape).Idx → EReal) (g : ℕ → ℕ → EReal)
    (h : ∀ (a : Fin M) (b : Fin N), X (ix2 a b) = g a.val b.val) (a b : ℕ) (ha : a < M) (hb : b < N) :
    at2 X a b = g a b := by
  rw [← h ⟨a, ha⟩ ⟨b, hb⟩]; exact at2_val X ⟨a, ha⟩ ⟨b, hb⟩

/-- An inner product of a row with a column, over the contracted axis as a range of naturals. -/
theorem sum_fin_eq_range {M K N : ℕ} (l : (⟨2, ![M, K]⟩ : Shape).Idx → EReal) (r : (⟨2, ![K, N]⟩ : Shape).Idx → EReal)
    (p : Fin M) (q : Fin N) :
    ∑ k : Fin K, l (ix2 p k) * r (ix2 k q) = ∑ k ∈ range K, at2 l p.val k * at2 r k q.val := by
  rw [← Fin.sum_univ_eq_sum_range (fun k => at2 l p.val k * at2 r k q.val) K]
  exact Finset.sum_congr rfl fun k _ => by rw [at2_val, at2_val]

/-! ## Regrouping a sum into blocks; dropping zero padding -/

/-- A sum of m·b consecutive terms is the sum of its m blocks of b terms. -/
theorem sum_range_blocks {α : Type} [AddCommMonoid α] (f : ℕ → α) (b : ℕ) : ∀ m : ℕ,
    ∑ n ∈ range (m * b), f n = ∑ kb ∈ range m, ∑ kk ∈ range b, f (kb * b + kk)
  | 0 => by rw [Nat.zero_mul, sum_range_zero, sum_range_zero]
  | m + 1 => by
    rw [Nat.succ_mul, sum_range_add, sum_range_blocks f b m, sum_range_succ]

/-- Terms that vanish from position r on may be dropped from a sum. -/
theorem sum_range_drop {α : Type} [AddCommMonoid α] (g : ℕ → α) (r R : ℕ) (hrR : r ≤ R)
    (hz : ∀ n, r ≤ n → n < R → g n = 0) : ∑ n ∈ range R, g n = ∑ n ∈ range r, g n := by
  obtain ⟨d, rfl⟩ := Nat.exists_eq_add_of_le hrR
  rw [sum_range_add, Finset.sum_eq_zero (fun x hx => hz (r + x) (Nat.le_add_right _ _)
    (Nat.add_lt_add_left (mem_range.mp hx) _)), add_zero]

/-! ## The map and its blocked, padded evaluation -/

/-- The map's entry (p, q): the base product plus the rank-R correction. -/
def lora (X W A B : ℕ → ℕ → EReal) (K R : ℕ) (p q : ℕ) : EReal :=
  ∑ k ∈ range K, X p k * W k q + ∑ r ∈ range R, (∑ k ∈ range K, X p k * A k r) * B r q

/-- The base product's partial sum over the first n blocks of bk terms. -/
def basePart (X W : ℕ → ℕ → EReal) (bk : ℕ) (n : ℕ) (p q : ℕ) : EReal :=
  ∑ kb ∈ range n, ∑ kk ∈ range bk, X p (kb * bk + kk) * W (kb * bk + kk) q

theorem basePart_succ (X W : ℕ → ℕ → EReal) (bk n p q : ℕ) :
    basePart X W bk (n + 1) p q = basePart X W bk n p q + ∑ kk ∈ range bk, X p (n * bk + kk) * W (n * bk + kk) q :=
  sum_range_succ _ _

theorem basePart_zero (X W : ℕ → ℕ → EReal) (bk p q : ℕ) : basePart X W bk 0 p q = 0 := sum_range_zero _

/-- The blocked, padded evaluation's entry (p, q): both sums over k in nb blocks of bk, the rank widened to R'. -/
def blocked (X W A' B' : ℕ → ℕ → EReal) (nb bk R' : ℕ) (p q : ℕ) : EReal :=
  basePart X W bk nb p q + ∑ r ∈ range R', basePart X A' bk nb p r * B' r q

/-- The blocked, padded evaluation is the map: the widened operands agree with A and B below rank R, and the widened
    A is zero from rank R on. -/
theorem blocked_eq_lora (X W A B A' B' : ℕ → ℕ → EReal) (nb bk R R' : ℕ) (hR : R ≤ R')
    (hA : ∀ k r, r < R → A' k r = A k r) (hA0 : ∀ k r, R ≤ r → r < R' → A' k r = 0)
    (hB : ∀ r q, r < R → B' r q = B r q) (p q : ℕ) :
    blocked X W A' B' nb bk R' p q = lora X W A B (nb * bk) R p q := by
  unfold blocked lora basePart
  rw [← sum_range_blocks (fun k => X p k * W k q) bk nb]
  congr 1
  rw [sum_range_drop _ R R' hR]
  · refine Finset.sum_congr rfl fun r hr => ?_
    have hr' := mem_range.mp hr
    rw [← sum_range_blocks (fun k => X p k * A' k r) bk nb, hB r q hr']
    congr 1
    exact Finset.sum_congr rfl fun k _ => by rw [hA k r hr']
  · intro r h1 h2
    rw [Finset.sum_eq_zero fun kb _ => Finset.sum_eq_zero fun kk _ => by rw [hA0 _ r h1 h2, mul_zero], zero_mul]

/-! ## The map on arrays -/

/-- The map's result array, from the four argument arrays. -/
def loraArr {S K D R : ℕ} (x : (⟨2, ![S, K]⟩ : Shape).Idx → EReal) (w : (⟨2, ![K, D]⟩ : Shape).Idx → EReal)
    (a : (⟨2, ![K, R]⟩ : Shape).Idx → EReal) (b : (⟨2, ![R, D]⟩ : Shape).Idx → EReal) :
    (⟨2, ![S, D]⟩ : Shape).Idx → EReal :=
  fun i => lora (at2 x) (at2 w) (at2 a) (at2 b) K R (i 0).val (i 1).val

/-- Its entry (p, q) as sums over the arrays' own indices. -/
theorem loraArr_apply {S K D R : ℕ} (x : (⟨2, ![S, K]⟩ : Shape).Idx → EReal) (w : (⟨2, ![K, D]⟩ : Shape).Idx → EReal)
    (a : (⟨2, ![K, R]⟩ : Shape).Idx → EReal) (b : (⟨2, ![R, D]⟩ : Shape).Idx → EReal) (p : Fin S) (q : Fin D) :
    loraArr x w a b (ix2 p q)
      = (∑ k : Fin K, x (ix2 p k) * w (ix2 k q)) + ∑ r : Fin R, (∑ k : Fin K, x (ix2 p k) * a (ix2 k r)) * b (ix2 r q) := by
  show lora (at2 x) (at2 w) (at2 a) (at2 b) K R p.val q.val = _
  unfold lora
  rw [sum_fin_eq_range x w p q,
    ← Fin.sum_univ_eq_sum_range (fun r => (∑ k ∈ range K, at2 x p.val k * at2 a k r) * at2 b r q.val) R]
  congr 1
  exact Finset.sum_congr rfl fun r _ => by rw [sum_fin_eq_range x a p r, at2_val]

end Cert.Lora

end
-- ==== Proof.Steps.lean ====
/-
  One grid point's updates, read at an entry against whole arrays.

  When the point's x-block is rows P0… and columns K0… of an array X, its w-block rows K0… and columns Q0… of W, and
  so on, each update adds to the running entry one block of 512 terms of the corresponding sum over the contracted
  axis:  Σ_{kk<512} X[P0+p, K0+kk]·W[K0+kk, Q0+q].  The closing update adds  Σ_{r<128} S[p, r]·B[r, Q0+q].
-/
import proofs.«117060_j43516608643827_2_alg».proof.Proof.Entries
import proofs.«117060_j43516608643827_2_alg».proof.Proof.LoraSpec

noncomputable section

namespace Cert.KernelIdeal.Steps

open Finset Cert.KernelIdeal Cert.KernelIdeal.Gen Idealize.ShloMosaic Idealize.ShloMosaic.ValueIdx

/-- The base update against whole arrays. -/
theorem base_step (x : Vec Ideal S2048x512 .bf16) (w : Vec Ideal S512x1024 .bf16) (o : Vec Ideal S2048x1024 .f32)
    (X W : ℕ → ℕ → EReal) (P0 Q0 K0 : ℕ)
    (hx : ∀ (p : Fin 2048) (kk : Fin 512), x (ix2 p kk) = X (P0 + p.val) (K0 + kk.val))
    (hw : ∀ (kk : Fin 512) (q : Fin 1024), w (ix2 kk q) = W (K0 + kk.val) (Q0 + q.val))
    (p : Fin 2048) (q : Fin 1024) :
    k0_pay4 x w o (ix2 p q)
      = o (ix2 p q) + ∑ kk ∈ range 512, X (P0 + p.val) (K0 + kk) * W (K0 + kk) (Q0 + q.val) := by
  rw [Entries.baseUpdate_apply,
    ← Fin.sum_univ_eq_sum_range (fun kk => X (P0 + p.val) (K0 + kk) * W (K0 + kk) (Q0 + q.val)) 512]
  exact congrArg (o (ix2 p q) + ·) (Finset.sum_congr rfl fun kk _ => by rw [hx, hw])

/-- The rank-accumulator update against whole arrays (the a-block spans all 128 columns). -/
theorem acc_step (x : Vec Ideal S2048x512 .bf16) (a : Vec Ideal S512x128 .bf16) (s : Vec Ideal S2048x128 .f32)
    (X A : ℕ → ℕ → EReal) (P0 K0 : ℕ)
    (hx : ∀ (p : Fin 2048) (kk : Fin 512), x (ix2 p kk) = X (P0 + p.val) (K0 + kk.val))
    (ha : ∀ (kk : Fin 512) (r : Fin 128), a (ix2 kk r) = A (K0 + kk.val) r.val)
    (p : Fin 2048) (r : Fin 128) :
    k0_pay5 x a s (ix2 p r)
      = s (ix2 p r) + ∑ kk ∈ range 512, X (P0 + p.val) (K0 + kk) * A (K0 + kk) r.val := by
  rw [Entries.accUpdate_apply,
    ← Fin.sum_univ_eq_sum_range (fun kk => X (P0 + p.val) (K0 + kk) * A (K0 + kk) r.val) 512]
  exact congrArg (s (ix2 p r) + ·) (Finset.sum_congr rfl fun kk _ => by rw [hx, ha])

/-- The closing update against a whole array B (the b-block spans all 128 rows) and the accumulator's entries S. -/
theorem closing_step (b : Vec Ideal S128x1024 .bf16) (s : Vec Ideal S2048x128 .f32) (o : Vec Ideal S2048x1024 .f32)
    (S B : ℕ → ℕ → EReal) (Q0 : ℕ)
    (hs : ∀ (p : Fin 2048) (r : Fin 128), s (ix2 p r) = S p.val r.val)
    (hb : ∀ (r : Fin 128) (q : Fin 1024), b (ix2 r q) = B r.val (Q0 + q.val))
    (p : Fin 2048) (q : Fin 1024) :
    k0_pay6 b s o (ix2 p q) = o (ix2 p q) + ∑ r ∈ range 128, S p.val r * B r (Q0 + q.val) := by
  rw [Entries.closing_apply, ← Fin.sum_univ_eq_sum_range (fun r => S p.val r * B r (Q0 + q.val)) 128]
  exact congrArg (o (ix2 p q) + ·) (Finset.sum_congr rfl fun r _ => by rw [hs, hb])

end Cert.KernelIdeal.Steps

end
-- ==== Proof.Blocks.lean ====
/-
  The windows' blocks at a grid point, entry by entry, against the staged arrays at natural-number coordinates.

  The grid is 4 × 4 × 8; point t has coordinates (i, j, k) = (t / 32, t / 8 mod 4, t mod 8). At that point
    the x-window's block is rows 2048·i …, columns 512·k … of the staged x   [8192, 4096];
    the W-window's block is rows 512·k …, columns 1024·j … of the staged W   [4096, 4096];
    the A-window's block is rows 512·k …, all 128 columns of the staged A    [4096, 128];
    the B-window's block is all 128 rows, columns 1024·j … of the staged B   [128, 4096];
    the output window's block is rows 2048·i …, columns 1024·j … of the result [8192, 4096].
-/
import proofs.«117060_j43516608643827_2_alg».proof.Proof.Gen.KernelIdeal.Frame
import proofs.«117060_j43516608643827_2_alg».proof.Proof.LoraSpec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.Lora

variable (m : (ℓ : Loc nD τ sig) → Buf (Elt Ideal) ℓ)

/-- The staged arrays at natural-number coordinates. -/
def XN (c : Dev nD) : ℕ → ℕ → EReal := at2 (M := 8192) (N := 4096) (V m c main_v2)
def WN (c : Dev nD) : ℕ → ℕ → EReal := at2 (M := 4096) (N := 4096) (V m c main_v3)
def AN (c : Dev nD) : ℕ → ℕ → EReal := at2 (M := 4096) (N := 128) (V m c main_v4)
def BN (c : Dev nD) : ℕ → ℕ → EReal := at2 (M := 128) (N := 4096) (V m c main_v5)

theorem point_lt (t : Fin cfg0.N) : t.val < 128 := lt_of_lt_of_eq t.isLt N_0

/-- The printed index maps in closed form, decided over the grid. -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val % 8 ∧ win0_2.index t (1 : Fin 2) = 0
    ∧ win0_3.index t (0 : Fin 2) = 0 ∧ win0_3.index t (1 : Fin 2) = t.val / 8 % 4
    ∧ win0_4.index t (0 : Fin 2) = t.val / 32 ∧ win0_4.index t (1 : Fin 2) = t.val / 8 % 4 :=
  (by decide +kernel : ∀ t : Fin grid0.N, _)

/-- The x-block at an entry. -/
theorem xBlock (c : Dev nD) (t : Fin cfg0.N) (p : Fin 2048) (kk : Fin 512) :
    iblk m c 0 t (ix2 p kk) = XN m c (t.val / 32 * 2048 + p.val) (t.val % 8 * 512 + kk.val) := by
  have hN := point_lt t
  obtain ⟨e0, e1, -⟩ := idx_facts t
  have hP : t.val / 32 * 2048 + p.val < 8192 := by have := p.isLt; omega
  have hK : t.val % 8 * 512 + kk.val < 4096 := by have := kk.isLt; omega
  refine Eq.trans ?_ (at2_val (M := 8192) (N := 4096) (V m c main_v2) ⟨_, hP⟩ ⟨_, hK⟩).symm
  show V m c main_v2 (((cfg0.win 0).blk t).view.emb (ix2 p kk)) = _
  refine congrArg (V m c main_v2) (funext fun d => Fin.ext ?_)
  match d with
  | ⟨0, _⟩ => show win0_0.index t (0 : Fin 2) * 2048 + 1 * p.val = t.val / 32 * 2048 + p.val; omega
  | ⟨1, _⟩ => show win0_0.index t (1 : Fin 2) * 512 + 1 * kk.val = t.val % 8 * 512 + kk.val; omega

/-- The W-block at an entry. -/
theorem wBlock (c : Dev nD) (t : Fin cfg0.N) (kk : Fin 512) (q : Fin 1024) :
    iblk m c 1 t (ix2 kk q) = WN m c (t.val % 8 * 512 + kk.val) (t.val / 8 % 4 * 1024 + q.val) := by
  have hN := point_lt t
  obtain ⟨-, -, e0, e1, -⟩ := idx_facts t
  have hK : t.val % 8 * 512 + kk.val < 4096 := by have := kk.isLt; omega
  have hQ : t.val / 8 % 4 * 1024 + q.val < 4096 := by have := q.isLt; omega
  refine Eq.trans ?_ (at2_val (M := 4096) (N := 4096) (V m c main_v3) ⟨_, hK⟩ ⟨_, hQ⟩).symm
  show V m c main_v3 (((cfg0.win 1).blk t).view.emb (ix2 kk q)) = _
  refine congrArg (V m c main_v3) (funext fun d => Fin.ext ?_)
  match d with
  | ⟨0, _⟩ => show win0_1.index t (0 : Fin 2) * 512 + 1 * kk.val = t.val % 8 * 512 + kk.val; omega
  | ⟨1, _⟩ => show win0_1.index t (1 : Fin 2) * 1024 + 1 * q.val = t.val / 8 % 4 * 1024 + q.val; omega

/-- The A-block at an entry. -/
theorem aBlock (c : Dev nD) (t : Fin cfg0.N) (kk : Fin 512) (r : Fin 128) :
    iblk m c 2 t (ix2 kk r) = AN m c (t.val % 8 * 512 + kk.val) r.val := by
  have hN := point_lt t
  obtain ⟨-, -, -, -, e0, e1, -⟩ := idx_facts t
  have hK : t.val % 8 * 512 + kk.val < 4096 := by have := kk.isLt; omega
  refine Eq.trans ?_ (at2_val (M := 4096) (N := 128) (V m c main_v4) ⟨_, hK⟩ r).symm
  show V m c main_v4 (((cfg0.win 2).blk t).view.emb (ix2 kk r)) = _
  refine congrArg (V m c main_v4) (funext fun d => Fin.ext ?_)
  match d with
  | ⟨0, _⟩ => show win0_2.index t (0 : Fin 2) * 512 + 1 * kk.val = t.val % 8 * 512 + kk.val; omega
  | ⟨1, _⟩ => show win0_2.index t (1 : Fin 2) * 128 + 1 * r.val = r.val; omega

/-- The B-block at an entry. -/
theorem bBlock (c : Dev nD) (t : Fin cfg0.N) (r : Fin 128) (q : Fin 1024) :
    iblk m c 3 t (ix2 r q) = BN m c r.val (t.val / 8 % 4 * 1024 + q.val) := by
  have hN := point_lt t
  obtain ⟨-, -, -, -, -, -, e0, e1, -⟩ := idx_facts t
  have hQ : t.val / 8 % 4 * 1024 + q.val < 4096 := by have := q.isLt; omega
  refine Eq.trans ?_ (at2_val (M := 128) (N := 4096) (V m c main_v5) r ⟨_, hQ⟩).symm
  show V m c main_v5 (((cfg0.win 3).blk t).view.emb (ix2 r q)) = _
  refine congrArg (V m c main_v5) (funext fun d => Fin.ext ?_)
  match d with
  | ⟨0, _⟩ => show win0_3.index t (0 : Fin 2) * 128 + 1 * r.val = r.val; omega
  | ⟨1, _⟩ => show win0_3.index t (1 : Fin 2) * 1024 + 1 * q.val = t.val / 8 % 4 * 1024 + q.val; omega

end Cert.KernelIdeal.Blocks

end
-- ==== Proof.Invariant.lean ====
/-
  What the output block and the rank accumulator hold after every grid point.

  Point t = 32·i + 8·j + k works on output block (i, j) with the k-th blocks of the contracted axis. With
  P = 2048·i + p and Q = 1024·j + q the global coordinates of the block entry (p, q):

    accumulator after t :  Σ_{kb ≤ k} Σ_{kk<512} x[P, 512·kb+kk]·A'[512·kb+kk, r]
    output after t, k<7 :  Σ_{kb ≤ k} Σ_{kk<512} x[P, 512·kb+kk]·W[512·kb+kk, Q]
    output after t, k=7 :  the whole blocked evaluation (all eight blocks, plus Σ_{r<128} acc[p, r]·B'[r, Q]).

  By induction on the point: at k = 0 both buffers restart from zero; at 0 < k the point adds one block of terms to
  what the point before (same i and j, k − 1) left; at k = 7 the closing update is applied on top.
-/
import proofs.«117060_j43516608643827_2_alg».proof.Proof.Pieces
import proofs.«117060_j43516608643827_2_alg».proof.Proof.Steps
import proofs.«117060_j43516608643827_2_alg».proof.Proof.Blocks

noncomputable section

namespace Cert.KernelIdeal.Invariant

open Finset Cert.KernelIdeal Cert.KernelIdeal.Gen Idealize.ShloMosaic Idealize.ShloMosaic.TcCoe Idealize.SL.Sem
open Idealize.ShloMosaic.ValueIdx Cert.Lora Cert.KernelIdeal.Blocks

variable (m : (ℓ : Loc nD τ sig) → Buf (Elt Ideal) ℓ)

/-- The output block's entry (p, q) after point n. -/
def outAt (c : Dev nD) (n p q : ℕ) : EReal :=
  if n % 8 = 7 then
    blocked (XN m c) (WN m c) (AN m c) (BN m c) 8 512 128 (n / 32 * 2048 + p) (n / 8 % 4 * 1024 + q)
  else basePart (XN m c) (WN m c) 512 (n % 8 + 1) (n / 32 * 2048 + p) (n / 8 % 4 * 1024 + q)

/-- The rank accumulator's entry (p, r) after point n. -/
def accAt (c : Dev nD) (n p r : ℕ) : EReal :=
  basePart (XN m c) (AN m c) 512 (n % 8 + 1) (n / 32 * 2048 + p) r

/-- The two buffers after point n are as described. -/
def Holds (c : Dev nD) (n : ℕ) (h : n < cfg0.N) : Prop :=
  (∀ (p : Fin 2048) (q : Fin 1024), (outsAt0 m c n h).1 (ix2 p q) = outAt m c n p.val q.val)
  ∧ (∀ (p : Fin 2048) (r : Fin 128), (outsAt0 m c n h).2 (ix2 p r) = accAt m c n p.val r.val)

/-- A point with k = 0: both buffers restart from zero and receive block 0. -/
theorem holds_first (c : Dev nD) (t : Fin cfg0.N) (h0 : t.val % 8 = 0) : Holds m c t.val t.isLt := by
  have h1 : ¬t.val % 8 = 7 := by omega
  unfold Holds
  rw [outsAt0_A m c t h0 h1]
  dsimp only
  rw [Pieces.outA, Pieces.accA]
  constructor
  · intro p q
    refine (Steps.base_step (iblk m c 0 t) (iblk m c 1 t) _ (XN m c) (WN m c) (t.val / 32 * 2048) (t.val / 8 % 4 * 1024)
      (t.val % 8 * 512) (xBlock m c t) (wBlock m c t) p q).trans ?_
    rw [Entries.zeroOut_apply, zero_add]
    unfold outAt
    rw [if_neg h1, h0, basePart_succ, basePart_zero, zero_add]
  · intro p r
    refine (Steps.acc_step (iblk m c 0 t) (iblk m c 2 t) _ (XN m c) (AN m c) (t.val / 32 * 2048)
      (t.val % 8 * 512) (xBlock m c t) (aBlock m c t) p r).trans ?_
    rw [Entries.zeroAcc_apply, zero_add]
    unfold accAt
    rw [h0, basePart_succ, basePart_zero, zero_add]

/-- A point with 0 < k < 7: block k is added to what the point before left. -/
theorem holds_middle (c : Dev nD) (t : Fin cfg0.N) (h0 : ¬t.val % 8 = 0) (h1 : ¬t.val % 8 = 7)
    (ih : Holds m c (t.val - 1) (Nat.lt_of_le_of_lt (Nat.sub_le _ _) t.isLt)) : Holds m c t.val t.isLt := by
  obtain ⟨ihO, ihS⟩ := ih
  have hN := point_lt t
  have e1 : (t.val - 1) % 8 + 1 = t.val % 8 := by omega
  have e2 : (t.val - 1) / 32 = t.val / 32 := by omega
  have e3 : (t.val - 1) / 8 % 4 = t.val / 8 % 4 := by omega
  have e4 : ¬(t.val - 1) % 8 = 7 := by omega
  unfold Holds
  rw [outsAt0_B m c t h0 h1]
  dsimp only
  rw [Pieces.outB, Pieces.accB]
  constructor
  · intro p q
    refine (Steps.base_step (iblk m c 0 t) (iblk m c 1 t) _ (XN m c) (WN m c) (t.val / 32 * 2048) (t.val / 8 % 4 * 1024)
      (t.val % 8 * 512) (xBlock m c t) (wBlock m c t) p q).trans ?_
    rw [ihO p q]
    unfold outAt
    rw [if_neg e4, if_neg h1, e1, e2, e3, basePart_succ]
  · intro p r
    refine (Steps.acc_step (iblk m c 0 t) (iblk m c 2 t) _ (XN m c) (AN m c) (t.val / 32 * 2048)
      (t.val % 8 * 512) (xBlock m c t) (aBlock m c t) p r).trans ?_
    rw [ihS p r]
    unfold accAt
    rw [e1, e2, basePart_succ]

/-- A point with k = 7: block 7 is added, then the closing update is applied to the completed sums. -/
theorem holds_last (c : Dev nD) (t : Fin cfg0.N) (h0 : ¬t.val % 8 = 0) (h1 : t.val % 8 = 7)
    (ih : Holds m c (t.val - 1) (Nat.lt_of_le_of_lt (Nat.sub_le _ _) t.isLt)) : Holds m c t.val t.isLt := by
  obtain ⟨ihO, ihS⟩ := ih
  have hN := point_lt t
  have e1 : (t.val - 1) % 8 + 1 = t.val % 8 := by omega
  have e2 : (t.val - 1) / 32 = t.val / 32 := by omega
  have e3 : (t.val - 1) / 8 % 4 = t.val / 8 % 4 := by omega
  have e4 : ¬(t.val - 1) % 8 = 7 := by omega
  have accNow : ∀ (p : Fin 2048) (r : Fin 128),
      k0_pay5 (iblk m c 0 t) (iblk m c 2 t) (outsAt0 m c (t.val - 1) (Nat.lt_of_le_of_lt (Nat.sub_le _ _) t.isLt)).2 (ix2 p r)
        = accAt m c t.val p.val r.val := by
    intro p r
    refine (Steps.acc_step (iblk m c 0 t) (iblk m c 2 t) _ (XN m c) (AN m c) (t.val / 32 * 2048)
      (t.val % 8 * 512) (xBlock m c t) (aBlock m c t) p r).trans ?_
    rw [ihS p r]
    unfold accAt
    rw [e1, e2, basePart_succ]
  have baseNow : ∀ (p : Fin 2048) (q : Fin 1024),
      k0_pay4 (iblk m c 0 t) (iblk m c 1 t) (outsAt0 m c (t.val - 1) (Nat.lt_of_le_of_lt (Nat.sub_le _ _) t.isLt)).1 (ix2 p q)
        = basePart (XN m c) (WN m c) 512 (t.val % 8 + 1) (t.val / 32 * 2048 + p.val) (t.val / 8 % 4 * 1024 + q.val) := by
    intro p q
    refine (Steps.base_step (iblk m c 0 t) (iblk m c 1 t) _ (XN m c) (WN m c) (t.val / 32 * 2048) (t.val / 8 % 4 * 1024)
      (t.val % 8 * 512) (xBlock m c t) (wBlock m c t) p q).trans ?_
    rw [ihO p q]
    unfold outAt
    rw [if_neg e4, e1, e2, e3, basePart_succ]
  unfold Holds
  rw [outsAt0_C m c t h0 h1]
  dsimp only
  rw [Pieces.outC, Pieces.accC]
  refine ⟨fun p q => ?_, accNow⟩
  refine (Steps.closing_step (iblk m c 3 t) _ _ (fun p r => accAt m c t.val p r) (BN m c) (t.val / 8 % 4 * 1024)
    accNow (bBlock m c t) p q).trans ?_
  rw [baseNow p q]
  unfold outAt accAt blocked
  rw [if_pos h1, h1]

/-- The description holds after every point. -/
theorem holds (c : Dev nD) : ∀ (n : ℕ) (h : n < cfg0.N), Holds m c n h
  | 0, h => holds_first m c ⟨0, h⟩ rfl
  | n + 1, h => by
    by_cases h0 : (n + 1) % 8 = 0
    · exact holds_first m c ⟨n + 1, h⟩ h0
    · by_cases h1 : (n + 1) % 8 = 7
      · exact holds_last m c ⟨n + 1, h⟩ h0 h1 (holds c n (Nat.lt_of_succ_lt h))
      · exact holds_middle m c ⟨n + 1, h⟩ h0 h1 (holds c n (Nat.lt_of_succ_lt h))

end Cert.KernelIdeal.Invariant

end
-- ==== Proof.Final.lean ====
/-
  The result array after the run, as one function of the staged arrays.

  The output window is written back only at the points with k = 7, where its block (i, j) holds the whole blocked
  evaluation at rows 2048·i … and columns 1024·j …. Every entry (P, Q) of the [8192, 4096] result lies in the block
  (P / 2048, Q / 1024), which the point 32·(P / 2048) + 8·(Q / 1024) + 7 writes back; so the array ends holding the
  blocked evaluation at every entry.
-/
import proofs.«117060_j43516608643827_2_alg».proof.Proof.Invariant
import proofs.«117060_j43516608643827_2_alg».proof.Proof.Gen.KernelIdeal.Value

noncomputable section

namespace Cert.KernelIdeal.Final

open Finset Cert.KernelIdeal Cert.KernelIdeal.Gen Idealize.ShloMosaic Idealize.ShloMosaic.TcCoe Idealize.SL.Sem
open Idealize.ShloMosaic.ValueIdx Cert.Lora Cert.KernelIdeal.Blocks Cert.KernelIdeal.Invariant
open Idealize.ShloMosaic.Pipeline (Dat)

variable (m : (ℓ : Loc nD τ sig) → Buf (Elt Ideal) ℓ) (ρ : Dev nD → PrngReg)

/-- The blocked evaluation at every entry of the result. -/
def blockedArr (c : Dev nD) : S8192x4096.Idx → EReal := fun i =>
  blocked (XN m c) (WN m c) (AN m c) (BN m c) 8 512 128 (i 0).val (i 1).val

/-- What a point with k = 7 writes back is its block of the blocked evaluation. -/
theorem flushed_eq (c : Dev nD) (t : Fin cfg0.N) (hf : (cfg0.win 4).flush t = true) :
    (dats m 0 c).flushed 4 t = ((cfg0.win 4).blk t).view.read (Elt Ideal) (blockedArr m c) := by
  have h1 : t.val % 8 = 7 := (flush0_4 t).mp hf
  have hN := point_lt t
  obtain ⟨-, -, -, -, -, -, -, -, e0, e1⟩ := idx_facts t
  rw [Value.flushed4]
  funext j
  obtain ⟨p, q, rfl⟩ : ∃ (p : Fin 2048) (q : Fin 1024), j = ix2 p q := ⟨j 0, j 1, eq_ix2 j⟩
  show (outsAt0 m c t.val t.isLt).1 (ix2 p q) = blockedArr m c (((cfg0.win 4).blk t).view.emb (ix2 p q))
  rw [(holds m c t.val t.isLt).1 p q]
  have p0 : ((((cfg0.win 4).blk t).view.emb (ix2 p q)) 0).val = t.val / 32 * 2048 + p.val := by
    show win0_4.index t (0 : Fin 2) * 2048 + 1 * p.val = _; omega
  have p1 : ((((cfg0.win 4).blk t).view.emb (ix2 p q)) 1).val = t.val / 8 % 4 * 1024 + q.val := by
    show win0_4.index t (1 : Fin 2) * 1024 + 1 * q.val = _; omega
  unfold outAt blockedArr
  rw [if_pos h1, p0, p1]

/-- An entry of the result is in point t's block iff each coordinate is in the block's range on its axis. -/
theorem mem_blk (t : Fin cfg0.N) (i : S8192x4096.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v6).slice (win0_4.rect t)).set ↔ _
  rw [View.set_slice_whole, Rect.mem_set_unit]
  exact Iff.rfl

/-- Every entry of the result is in the block some point with k = 7 writes back. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hlt : (i 0).val / 2048 * 32 + (i 1).val / 1024 * 8 + 7 < cfg0.N := by
    rw [show cfg0.N = 128 from N_0]; omega
  obtain ⟨-, -, -, -, -, -, -, -, e0, e1⟩ := idx_facts ⟨_, hlt⟩
  have e0' : win0_4.index ⟨_, hlt⟩ (0 : Fin 2) = ((i 0).val / 2048 * 32 + (i 1).val / 1024 * 8 + 7) / 32 := e0
  have e1' : win0_4.index ⟨_, hlt⟩ (1 : Fin 2) = ((i 0).val / 2048 * 32 + (i 1).val / 1024 * 8 + 7) / 8 % 4 := e1
  refine ⟨⟨_, hlt⟩, (flush0_4 _).mpr (by
    show ((i 0).val / 2048 * 32 + (i 1).val / 1024 * 8 + 7) % 8 = 7; omega), ?_⟩
  rw [mem_blk]
  intro a
  match a with
  | ⟨0, _⟩ =>
    show win0_4.index ⟨_, hlt⟩ (0 : Fin 2) * 2048 ≤ (i 0).val
      ∧ (i 0).val < win0_4.index ⟨_, hlt⟩ (0 : Fin 2) * 2048 + 2048
    rw [e0']; omega
  | ⟨1, _⟩ =>
    show win0_4.index ⟨_, hlt⟩ (1 : Fin 2) * 1024 ≤ (i 1).val
      ∧ (i 1).val < win0_4.index ⟨_, hlt⟩ (1 : Fin 2) * 1024 + 1024
    rw [e1']; omega

/-- The result array after the run is the blocked evaluation. -/
theorem final (c : Dev nD) : (dats m 0 c).arrAt 4 cfg0.N = blockedArr m c :=
  (dats m 0 c).arrAt_eq_of_cover 4 (blockedArr m c) (flushed_eq m c) covered

/-- The run, read: the result at the blocked evaluation, the arguments unchanged. -/
theorem run : θ_run defs (onTc (τ := τ) (main (F := Ideal))) ⟨m, fun _ => 0, ρ⟩ fun r => ∀ c : Dev nD,
      r.2.mem ((c : Thread nD τ).loc main_v6) = blockedArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final

end
-- ==== Proof.Arrays.lean ====
/-
  What the region finds in the four arrays its input windows stage, as functions of @main's arguments, over the
  extended reals.

  Before the region @main casts x and W to bf16, and pads A from [4096, 16] to [4096, 128] on the right and B from
  [16, 4096] to [128, 4096] below, both with the value 0 (the integer 0 converted to a float), and casts those too.
  A change of float format is the identity over the extended reals. So the staged x and W are the arguments, the staged
  A is A in its first 16 columns and 0 in the other 112, and the staged B is B in its first 16 rows.
-/
import proofs.«117060_j43516608643827_2_alg».proof.Proof.Gen.KernelIdeal.Frame
import Idealize.ShloMosaic.Lib.StableHlo.Run
import Idealize.ShloMosaic.Lib.KernelVsHost
import Idealize.ShloMosaic.Lib.ValueIdx

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The value both pads fill with: the integer 0 as a float, which is the real 0. -/
theorem padValue_eq (j : S_.Idx) : sitofp (F := Ideal) .f32 (constantI S_ 32 0#32) j = 0 := by
  show ((((0#32 : BitVec 32).toInt : ℝ)) : EReal) = 0
  simp

/-- The staged x is the argument x. -/
theorem xArr (c : Dev nD) : (V m c main_v2 : S8192x4096.Idx → EReal) = m ((c : Thread nD τ).loc main_arg0) := by
  have e : (V m c main_v2 : S8192x4096.Idx → EReal)
      = (truncf .bf16 (m ((c : Thread nD τ).loc main_arg0)) bitsLt_bf16_f32 : FVec Ideal S8192x4096 .bf16) := by
    dsimp only [V]
    simp only [hostOps0, hostOps0_1, hostOps0_2, hostOps0_3, hostOps0_4, List.flatten_cons, List.flatten_nil, List.append_nil, List.cons_append, List.nil_append]
    after_results
    all_goals rfl
  rw [e]; rfl

/-- The staged W is the argument W. -/
theorem wArr (c : Dev nD) : (V m c main_v3 : S4096x4096.Idx → EReal) = m ((c : Thread nD τ).loc main_arg1) := by
  have e : (V m c main_v3 : S4096x4096.Idx → EReal)
      = (truncf .bf16 (m ((c : Thread nD τ).loc main_arg1)) bitsLt_bf16_f32 : FVec Ideal S4096x4096 .bf16) := by
    dsimp only [V]
    simp only [hostOps0, hostOps0_1, hostOps0_2, hostOps0_3, hostOps0_4, List.flatten_cons, List.flatten_nil, List.append_nil, List.cons_append, List.nil_append]
    after_results
    all_goals rfl
  rw [e]; rfl

/-- The staged A is the argument A padded on the right with the pad value. -/
theorem aArr (c : Dev nD) : (V m c main_v4 : S4096x128.Idx → EReal)
    = pad S4096x128 ![0, 0] ![0, 112] ![0, 0] (m ((c : Thread nD τ).loc main_arg3))
        (sitofp (F := Ideal) .f32 (constantI S_ 32 0#32)) pads_S4096x16_S4096x128_000_01120 h_S_ := by
  have e : (V m c main_v4 : S4096x128.Idx → EReal)
      = (truncf .bf16 (pad S4096x128 ![0, 0] ![0, 112] ![0, 0] (m ((c : Thread nD τ).loc main_arg3))
        (sitofp (F := Ideal) .f32 (constantI S_ 32 0#32)) pads_S4096x16_S4096x128_000_01120 h_S_) bitsLt_bf16_f32 : FVec Ideal S4096x128 .bf16) := by
    dsimp only [V]
    simp only [hostOps0, hostOps0_1, hostOps0_2, hostOps0_3, hostOps0_4, List.flatten_cons, List.flatten_nil, List.append_nil, List.cons_append, List.nil_append]
    after_results
    all_goals rfl
  rw [e]; rfl

/-- The staged B is the argument B padded below with the pad value. -/
theorem bArr (c : Dev nD) : (V m c main_v5 : S128x4096.Idx → EReal)
    = pad S128x4096 ![0, 0] ![112, 0] ![0, 0] (m ((c : Thread nD τ).loc main_arg4))
        (sitofp (F := Ideal) .f32 (constantI S_ 32 0#32)) pads_S16x4096_S128x4096_01120_000 h_S_ := by
  have e : (V m c main_v5 : S128x4096.Idx → EReal)
      = (truncf .bf16 (pad S128x4096 ![0, 0] ![112, 0] ![0, 0] (m ((c : Thread nD τ).loc main_arg4))
        (sitofp (F := Ideal) .f32 (constantI S_ 32 0#32)) pads_S16x4096_S128x4096_01120_000 h_S_) bitsLt_bf16_f32 : FVec Ideal S128x4096 .bf16) := by
    dsimp only [V]
    simp only [hostOps0, hostOps0_1, hostOps0_2, hostOps0_3, hostOps0_4, List.flatten_cons, List.flatten_nil, List.append_nil, List.cons_append, List.nil_append]
    after_results
    all_goals rfl
  rw [e]; rfl

/-- The staged A in its first 16 columns is A. -/
theorem aArr_inside (c : Dev nD) (k : Fin 4096) (r : Fin 128) (hr : r.val < 16) :
    (V m c main_v4 : S4096x128.Idx → EReal) (ix2 k r) = m ((c : Thread nD τ).loc main_arg3) (ix2 k (⟨r.val, hr⟩ : Fin 16)) := by
  rw [aArr]
  refine pad_apply_of_inside _ _ _ _ _ _ _ (ix2 k r) (ix2 k (⟨r.val, hr⟩ : Fin 16)) fun a => ?_
  match a with
  | ⟨0, _⟩ => show k.val = 0 + k.val * (0 + 1); omega
  | ⟨1, _⟩ => show r.val = 0 + r.val * (0 + 1); omega

/-- The staged A beyond its first 16 columns is 0. -/
theorem aArr_outside (c : Dev nD) (k : Fin 4096) (r : Fin 128) (hr : 16 ≤ r.val) :
    (V m c main_v4 : S4096x128.Idx → EReal) (ix2 k r) = (0 : EReal) := by
  rw [aArr]
  refine (pad_apply_of_not_inside _ _ _ _ _ _ _ (ix2 k r) (1 : Fin 2) ?_).trans (padValue_eq _)
  show ¬(0 ≤ r.val ∧ (r.val - 0) % (0 + 1) = 0 ∧ (r.val - 0) / (0 + 1) < 16)
  omega

/-- The staged B in its first 16 rows is B. -/
theorem bArr_inside (c : Dev nD) (r : Fin 128) (q : Fin 4096) (hr : r.val < 16) :
    (V m c main_v5 : S128x4096.Idx → EReal) (ix2 r q) = m ((c : Thread nD τ).loc main_arg4) (ix2 (⟨r.val, hr⟩ : Fin 16) q) := by
  rw [bArr]
  refine pad_apply_of_inside _ _ _ _ _ _ _ (ix2 r q) (ix2 (⟨r.val, hr⟩ : Fin 16) q) fun a => ?_
  match a with
  | ⟨0, _⟩ => show r.val = 0 + r.val * (0 + 1); omega
  | ⟨1, _⟩ => show q.val = 0 + q.val * (0 + 1); omega

end Cert.KernelIdeal.Arrays

end
-- ==== Proof.Bridge.lean ====
/-
  The blocked, zero-padded evaluation over the staged arrays is the map of @main's arguments.

  The staged x and W are the arguments; the staged A agrees with the argument A in its first 16 columns and is zero in
  the other 112; the staged B agrees with the argument B in its first 16 rows. Regrouping the eight blocks of the sums
  over k and dropping the 112 zero ranks turns the blocked evaluation into the map.
-/
import proofs.«117060_j43516608643827_2_alg».proof.Proof.Final
import proofs.«117060_j43516608643827_2_alg».proof.Proof.Arrays

noncomputable section

namespace Cert.KernelIdeal.Bridge

open Finset Cert.KernelIdeal Cert.KernelIdeal.Gen Idealize.ShloMosaic Idealize.ShloMosaic.TcCoe Idealize.SL.Sem
open Idealize.ShloMosaic.ValueIdx Cert.Lora Cert.KernelIdeal.Blocks Cert.KernelIdeal.Final

variable (m : (ℓ : Loc nD τ sig) → Buf (Elt Ideal) ℓ)

theorem xN_eq (c : Dev nD) : XN m c = at2 (M := 8192) (N := 4096) (m ((c : Thread nD τ).loc main_arg0)) := by
  unfold XN; rw [Arrays.xArr]

theorem wN_eq (c : Dev nD) : WN m c = at2 (M := 4096) (N := 4096) (m ((c : Thread nD τ).loc main_arg1)) := by
  unfold WN; rw [Arrays.wArr]

/-- The staged A below rank 16 is the argument A. -/
theorem aN_inside (c : Dev nD) (k r : ℕ) (hr : r < 16) : AN m c k r = at2 (M := 4096) (N := 16) (m ((c : Thread nD τ).loc main_arg3)) k r := by
  unfold AN
  by_cases hk : k < 4096
  · exact (at2_val (M := 4096) (N := 128) (V m c main_v4) ⟨k, hk⟩ ⟨r, by omega⟩).trans
      ((Arrays.aArr_inside m c ⟨k, hk⟩ ⟨r, by omega⟩ hr).trans
        (at2_val (M := 4096) (N := 16) (m ((c : Thread nD τ).loc main_arg3)) ⟨k, hk⟩ ⟨r, hr⟩).symm)
  · rw [at2_of_not_lt_left _ _ _ hk, at2_of_not_lt_left _ _ _ hk]

/-- The staged A from rank 16 on is zero. -/
theorem aN_outside (c : Dev nD) (k r : ℕ) (h1 : 16 ≤ r) (h2 : r < 128) : AN m c k r = 0 := by
  unfold AN
  by_cases hk : k < 4096
  · exact (at2_val (M := 4096) (N := 128) (V m c main_v4) ⟨k, hk⟩ ⟨r, h2⟩).trans
      (Arrays.aArr_outside m c ⟨k, hk⟩ ⟨r, h2⟩ h1)
  · exact at2_of_not_lt_left _ _ _ hk

/-- The staged B below rank 16 is the argument B. -/
theorem bN_inside (c : Dev nD) (r q : ℕ) (hr : r < 16) : BN m c r q = at2 (M := 16) (N := 4096) (m ((c : Thread nD τ).loc main_arg4)) r q := by
  unfold BN
  by_cases hq : q < 4096
  · exact (at2_val (M := 128) (N := 4096) (V m c main_v5) ⟨r, by omega⟩ ⟨q, hq⟩).trans
      ((Arrays.bArr_inside m c ⟨r, by omega⟩ ⟨q, hq⟩ hr).trans
        (at2_val (M := 16) (N := 4096) (m ((c : Thread nD τ).loc main_arg4)) ⟨r, hr⟩ ⟨q, hq⟩).symm)
  · rw [at2_of_not_lt_right _ _ _ hq, at2_of_not_lt_right _ _ _ hq]

/-- The result array is the map of the four arguments. -/
theorem blockedArr_eq (c : Dev nD) :
    blockedArr m c = loraArr (S := 8192) (K := 4096) (D := 4096) (R := 16) (m ((c : Thread nD τ).loc main_arg0)) (m ((c : Thread nD τ).loc main_arg1)) (m ((c : Thread nD τ).loc main_arg3)) (m ((c : Thread nD τ).loc main_arg4)) := by
  funext i
  unfold blockedArr loraArr
  rw [← xN_eq m c, ← wN_eq m c]
  exact blocked_eq_lora (XN m c) (WN m c) (at2 (M := 4096) (N := 16) (m ((c : Thread nD τ).loc main_arg3))) (at2 (M := 16) (N := 4096) (m ((c : Thread nD τ).loc main_arg4)))
    (AN m c) (BN m c) 8 512 16 128 (by norm_num) (aN_inside m c) (aN_outside m c) (bN_inside m c) _ _

end Cert.KernelIdeal.Bridge

end
-- ==== Proof.RefSide.lean ====
/-
  The reference's result, entry by entry, is the low-rank-adapted linear map of its arguments:
  x·W read at (p, q) is Σ_k x[p,k]·W[k,q]; (x·A)·B read at (p, q) is Σ_r (Σ_k x[p,k]·A[k,r])·B[r,q]; their sum is the
  map's entry. Each product is a sum over its one contracted axis, read through the operands' index functions.
-/
import proofs.«117060_j43516608643827_2_alg».proof.Proof.Gen.ReferenceIdeal.Read
import proofs.«117060_j43516608643827_2_alg».proof.Proof.LoraSpec

noncomputable section

namespace Cert.ReferenceIdeal.RefValue

open Cert.ReferenceIdeal Cert.ReferenceIdeal.Read Idealize.ShloMosaic Idealize.ShloMosaic.ValueIdx Cert.Lora

/-- The reference's result array is the map of its four arguments. -/
theorem ref_eq (x0 : (⟨S8192x4096, .f32⟩ : BufTy).Contents (Elt Ideal)) (x1 : (⟨S4096x4096, .f32⟩ : BufTy).Contents (Elt Ideal))
    (x3 : (⟨S4096x16, .f32⟩ : BufTy).Contents (Elt Ideal)) (x4 : (⟨S16x4096, .f32⟩ : BufTy).Contents (Elt Ideal)) :
    val_main_v3 (F := Ideal) x0 x1 x3 x4 = loraArr (S := 8192) (K := 4096) (D := 4096) (R := 16) x0 x1 x3 x4 := by
  funext i
  obtain ⟨p, q, rfl⟩ : ∃ (p : Fin 8192) (q : Fin 4096), i = ix2 p q := ⟨i 0, i 1, eq_ix2 i⟩
  have e0l : ∀ k : Fin 4096, lidx_main_v0 (ix2 p q) k = ix2 p k := fun k => funext fun a => Fin.ext (by match a with | ⟨0, _⟩ => rfl | ⟨1, _⟩ => rfl)
  have e0r : ∀ k : Fin 4096, ridx_main_v0 (ix2 p q) k = ix2 k q := fun k => funext fun a => Fin.ext (by match a with | ⟨0, _⟩ => rfl | ⟨1, _⟩ => rfl)
  have e2l : ∀ r : Fin 16, lidx_main_v2 (ix2 p q) r = ix2 p r := fun r => funext fun a => Fin.ext (by match a with | ⟨0, _⟩ => rfl | ⟨1, _⟩ => rfl)
  have e2r : ∀ r : Fin 16, ridx_main_v2 (ix2 p q) r = ix2 r q := fun r => funext fun a => Fin.ext (by match a with | ⟨0, _⟩ => rfl | ⟨1, _⟩ => rfl)
  have e1l : ∀ (r : Fin 16) (k : Fin 4096), lidx_main_v1 (ix2 p r) k = ix2 p k := fun r k => funext fun a => Fin.ext (by match a with | ⟨0, _⟩ => rfl | ⟨1, _⟩ => rfl)
  have e1r : ∀ (r : Fin 16) (k : Fin 4096), ridx_main_v1 (ix2 p r) k = ix2 k r := fun r k => funext fun a => Fin.ext (by match a with | ⟨0, _⟩ => rfl | ⟨1, _⟩ => rfl)
  rw [val_main_v3_apply, val_main_v0_apply, val_main_v2_apply, loraArr_apply]
  simp only [val_main_v1_apply, e0l, e0r, e2l, e2r, e1l, e1r]
  rfl

end Cert.ReferenceIdeal.RefValue

end
-- ==== Proof.lean ====
/-
  The certificate of a low-rank-adapted linear layer: a tiled kernel against its plain reference.

  Both programs compute, for x : [8192, 4096], W : [4096, 4096], A : [4096, 16], B : [16, 4096],

      out[p, q] = (Σ_k x[p,k]·W[k,q]) + Σ_{r<16} (Σ_k x[p,k]·A[k,r])·B[r,q],

  and pass the bias through unchanged. The reference does it with three matrix products and one sum. The kernel works
  on a 4 × 4 × 8 grid: for each [2048, 1024] block of the result it runs through the contracted axis in eight blocks of
  512, accumulating the base product in the result block itself and x·A' in a [2048, 128] accumulator, where A' and B'
  are A and B zero-padded from rank 16 to 128; at the last block it adds accumulator·B'. Its operands are cast to bf16
  first, which over the extended reals changes nothing.

  Over the extended reals the two results are equal at every entry: a sum may be cut into consecutive blocks and
  regrouped (addition is associative and commutative there, infinities included), and the 112 padded ranks contribute
  (Σ_k x·0)·B' = 0·B' = 0. Neither step needs the entries to be finite, so the precondition is not used.

  The three frame claims are the generated frames (the reference's: its generated run with the result dropped); the
  idealization rewrote no operation, so that conjunct is trivial.
-/
import proofs.«117060_j43516608643827_2_alg».proof.Defs
import proofs.«117060_j43516608643827_2_alg».proof.Proof.Gen.Kernel
import proofs.«117060_j43516608643827_2_alg».proof.Proof.Gen.Kernel.Skeleton
import proofs.«117060_j43516608643827_2_alg».proof.Proof.Gen.Kernel.Launch
import proofs.«117060_j43516608643827_2_alg».proof.Proof.Gen.Kernel.Points
import proofs.«117060_j43516608643827_2_alg».proof.Proof.Gen.Kernel.Frame
import proofs.«117060_j43516608643827_2_alg».proof.Proof.Gen.KernelIdeal
import proofs.«117060_j43516608643827_2_alg».proof.Proof.Gen.KernelIdeal.Skeleton
import proofs.«117060_j43516608643827_2_alg».proof.Proof.Gen.KernelIdeal.Launch
import proofs.«117060_j43516608643827_2_alg».proof.Proof.Gen.KernelIdeal.Points
import proofs.«117060_j43516608643827_2_alg».proof.Proof.Gen.KernelIdeal.Frame
import proofs.«117060_j43516608643827_2_alg».proof.Proof.Gen.ReferenceIdeal
import proofs.«117060_j43516608643827_2_alg».proof.Proof.Gen.KernelIdeal.Value
import proofs.«117060_j43516608643827_2_alg».proof.Proof.Gen.ReferenceIdeal.Run
import proofs.«117060_j43516608643827_2_alg».proof.Proof.Gen.ReferenceIdeal.Read
import proofs.«117060_j43516608643827_2_alg».proof.Proof.Gen.Pre_finite_inputs
import proofs.«117060_j43516608643827_2_alg».proof.Proof.Bridge
import proofs.«117060_j43516608643827_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel's result array ends at the blocked evaluation, which is the map of the arguments; the reference's ends
    at the map of its arguments, which agree; the bias is an unchanged argument on both sides. -/
theorem algebraic : Cert.algebraic_KernelIdeal_ReferenceIdeal := by
  intro m ρ m' ρ' _ hagree
  refine ⟨fun c => Cert.KernelIdeal.Final.blockedArr m c,
    fun c => m ((c.tc : Thread Cert.KernelIdeal.nD Cert.KernelIdeal.τ).loc Cert.KernelIdeal.main_arg2), ?_, ?_⟩
  · refine (θ_run Cert.KernelIdeal.defs _ _).mono (fun r h c => ?_) (Cert.KernelIdeal.Final.run m ρ)
    obtain ⟨h6, h0, h1, h2, h3, h4⟩ := h c
    exact ⟨h6, h2, h0, h1, h2, h3, h4⟩
  · refine (θ_run Cert.ReferenceIdeal.defs _ _).mono (fun r h c => ?_) (Cert.ReferenceIdeal.Value.run (F := Ideal) m' ρ')
    obtain ⟨hv, hb, h0, h1, h2, h3, h4⟩ := h c
    obtain ⟨a0, a1, a2, a3, a4⟩ := hagree c
    refine ⟨hv.trans ?_, hb.trans a2, h0, h1, h2, h3, h4⟩
    rw [Cert.ReferenceIdeal.Read.val_main_v3_eq, Cert.ReferenceIdeal.RefValue.ref_eq, a0, a1, a3, a4]
    exact (Cert.KernelIdeal.Bridge.blockedArr_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
